-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128x128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S5000x128 : Shape := ⟨2, ![5000, 128]⟩
abbrev S1x128 : Shape := ⟨2, ![1, 128]⟩

abbrev nBuf : Space → Nat
  | .hbm => 82
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S128x128, .f32⟩
  | .hbm, ⟨44, _⟩ => ⟨S128x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S128x128, .f32⟩
  | .hbm, ⟨62, _⟩ => ⟨S128x128, .f32⟩
  | .hbm, ⟨63, _⟩ => ⟨S50000x128, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x128, .f32⟩
  | .hbm, ⟨73, _⟩ => ⟨S_, .f32⟩
  | .hbm, ⟨74, _⟩ => ⟨S50000x128, .f32⟩
  | .hbm, ⟨75, _⟩ => ⟨S600000x1, .i32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S128x128, .f32⟩
  | .hbm, ⟨80, _⟩ => ⟨S128x128, .f32⟩
  | .hbm, ⟨81, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S50000, .f32⟩
  | .hbm, ⟨32, _⟩ => ⟨S600000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S_, .f32⟩
  | .hbm, ⟨65, _⟩ => ⟨S600000, .f32⟩
  | .hbm, ⟨66, _⟩ => ⟨S_, .f32⟩
  | .hbm, ⟨67, _⟩ => ⟨S50000, .f32⟩
  | .hbm, ⟨68, _⟩ => ⟨S600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S128x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S600000, .i32⟩
  | .hbm, ⟨89, _⟩ => ⟨S600000, .i1⟩
  | .hbm, ⟨90, _⟩ => ⟨S_, .i32⟩
  | .hbm, ⟨91, _⟩ => ⟨S600000, .i32⟩
  | .hbm, ⟨92, _⟩ => ⟨S600000, .i32⟩
  | .hbm, ⟨93, _⟩ => ⟨S600000, .i32⟩
  | .hbm, ⟨94, _⟩ => ⟨S600000x1, .i32⟩
  | .hbm, ⟨95, _⟩ => ⟨S600000x128, .f32⟩
  | .hbm, ⟨96, _⟩ => ⟨S_, .f32⟩
  | .hbm, ⟨97, _⟩ => ⟨S50000x128, .f32⟩
  | .hbm, ⟨98, _⟩ => ⟨S600000x1, .i32⟩
  | .hbm, ⟨99, _⟩ => ⟨S50000x128, .f32⟩
  | .hbm, ⟨100, _⟩ => ⟨S_, .f32⟩
  | .hbm, ⟨101, _⟩ => ⟨S600000, .f32⟩
  | .hbm, ⟨102, _⟩ => ⟨S_, .f32⟩
  | .hbm, ⟨103, _⟩ => ⟨S50000, .f32⟩
  | .hbm, ⟨104, _⟩ => ⟨S600000x1, .i32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x128, .f32⟩
  | .hbm, ⟨111, _⟩ => ⟨S50000x128, .f32⟩
  | .hbm, ⟨112, _⟩ => ⟨S128x128, .f32⟩
  | .hbm, ⟨113, _⟩ => ⟨S50000x128, .f32⟩
  | .hbm, ⟨114, _⟩ => ⟨S128x128, .f32⟩
  | .hbm, ⟨115, _⟩ => ⟨S50000x128, .f32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One layer of a mean-aggregating graph convolution, as a function of whole arrays, and the one law that joins
  its two spellings.

  A layer takes the node features `X : [50000, 128]`, the neighbour sums `S : [50000, 128]` (row `n` is the sum of
  the features of the sources of the edges that end at `n`), the in-degrees `D : [50000]`, two weight matrices
  `WL, WR : [128, 128]` and a bias `B : [128]`. With `A n k` the neighbour MEAN, the layer's entry `(n, q)` is

      (∑ k, A n k · WL k q) + (∑ k, X n k · WR k q) + B q,

  followed, in all layers but the last, by `max · 0`.

  The mean is spelt in two ways: as the product `S n k · (1 / max (D n) 1)` with the reciprocal taken once, or as
  the quotient `S n k / max (D n) 1`. On the extended reals the quotient by `y ≠ 0` IS the product with `y⁻¹`, and
  `1 / y` is `1 · y⁻¹ = y⁻¹`; `max d 1 ≥ 1` is never `0`, whatever `d` is (infinite included). So the two means are
  one function, with no finiteness assumption.
-/
import Idealize.ShloMosaic.PureOps.Ideal
import Idealize.ShloMosaic.PureOps.Ideal.Laws
import Idealize.ShloMosaic.PureOps.IdealRules
import Idealize.ShloMosaic.Lib.ValueIdx

noncomputable section

namespace Cert.Sage

open Idealize.ShloMosaic Idealize.ShloMosaic.ValueIdx

/-- Node features: 50000 nodes, 128 channels. -/
abbrev Feat : Shape := ⟨2, ![50000, 128]⟩
/-- A weight matrix. -/
abbrev Wt : Shape := ⟨2, ![128, 128]⟩
/-- A bias vector. -/
abbrev Bias : Shape := ⟨1, ![128]⟩
/-- One number per node. -/
abbrev Node : Shape := ⟨1, ![50000]⟩

/-- The f32 word of `1.0`, read as an extended real. -/
abbrev one : EReal := Ideal.ofBits .f32 0x3F800000#32

/-- It is the number one. -/
theorem one_eq : one = 1 := IdealRules.sign_bit.ideal_onePat .f32

/-- Entry `(p, q)` of a layer before its activation: the two matrix products and the bias, summed in that order. -/
def linAt (A X : FVec Ideal Feat .f32) (WL WR : FVec Ideal Wt .f32) (B : FVec Ideal Bias .f32)
    (p : Fin 50000) (q : Fin 128) : EReal :=
  ((∑ k : Fin 128, A (ix2 p k) * WL (ix2 k q)) + (∑ k : Fin 128, X (ix2 p k) * WR (ix2 k q))) + B (ix1 q)

/-- A layer with the rectifier: `max · 0` of every entry. -/
def denseRelu (A X : FVec Ideal Feat .f32) (WL WR : FVec Ideal Wt .f32) (B : FVec Ideal Bias .f32) :
    FVec Ideal Feat .f32 := fun i => max (linAt A X WL WR B (i 0) (i 1)) 0

/-- The last layer: no activation. -/
def denseLin (A X : FVec Ideal Feat .f32) (WL WR : FVec Ideal Wt .f32) (B : FVec Ideal Bias .f32) :
    FVec Ideal Feat .f32 := fun i => linAt A X WL WR B (i 0) (i 1)

/-- The neighbour mean as a PRODUCT with the reciprocal of the clamped degree. -/
def meanMul (S : FVec Ideal Feat .f32) (D : FVec Ideal Node .f32) : FVec Ideal Feat .f32 :=
  fun i => S i * Ideal.div one (max (D (ix1 (i 0))) one)

/-- The neighbour mean as a QUOTIENT by the clamped degree. -/
def meanDiv (S : FVec Ideal Feat .f32) (D : FVec Ideal Node .f32) : FVec Ideal Feat .f32 :=
  fun i => Ideal.div (S i) (max (D (ix1 (i 0))) one)

/-- `a · (1 / y) = a / y` on the extended reals for `y = max d 1`, which is never zero. -/
theorem mul_div_one_max (a d : EReal) : a * Ideal.div 1 (max d 1) = Ideal.div a (max d 1) := by
  have h : max d 1 ≠ 0 := fun h0 => by
    have h1 : (1 : EReal) ≤ max d 1 := le_max_right d 1
    rw [h0] at h1
    exact absurd h1 (by norm_num)
  rw [Ideal.div, Ideal.div, if_neg h, if_neg h, one_mul]

/-- The two spellings of the mean are one function. -/
theorem meanMul_eq_meanDiv (S : FVec Ideal Feat .f32) (D : FVec Ideal Node .f32) : meanMul S D = meanDiv S D := by
  funext i
  unfold meanMul meanDiv
  rw [one_eq]
  exact mul_div_one_max _ _

/-- One hidden layer from the features `h`: the neighbour sums `agg h`, their mean against the degrees `D` (in
    the spelling `mean`), the two products, the bias and the rectifier. -/
def layerRelu (mean : FVec Ideal Feat .f32 → FVec Ideal Node .f32 → FVec Ideal Feat .f32)
    (agg : FVec Ideal Feat .f32 → FVec Ideal Feat .f32) (D : FVec Ideal Node .f32) (h : FVec Ideal Feat .f32)
    (WL WR : FVec Ideal Wt .f32) (B : FVec Ideal Bias .f32) : FVec Ideal Feat .f32 :=
  denseRelu (mean (agg h) D) h WL WR B

/-- The output layer from the features `h`: the same without the rectifier. -/
def layerLin (mean : FVec Ideal Feat .f32 → FVec Ideal Node .f32 → FVec Ideal Feat .f32)
    (agg : FVec Ideal Feat .f32 → FVec Ideal Feat .f32) (D : FVec Ideal Node .f32) (h : FVec Ideal Feat .f32)
    (WL WR : FVec Ideal Wt .f32) (B : FVec Ideal Bias .f32) : FVec Ideal Feat .f32 :=
  denseLin (mean (agg h) D) h WL WR B

/-- The three-layer network: two hidden layers and the output layer, each on the previous layer's features, all
    with the same aggregation `agg` and degrees `D`. The weight matrices are taken as the products use them. -/
def net (mean : FVec Ideal Feat .f32 → FVec Ideal Node .f32 → FVec Ideal Feat .f32)
    (agg : FVec Ideal Feat .f32 → FVec Ideal Feat .f32) (D : FVec Ideal Node .f32) (x : FVec Ideal Feat .f32)
    (WL0 WR0 : FVec Ideal Wt .f32) (B0 : FVec Ideal Bias .f32)
    (WL1 WR1 : FVec Ideal Wt .f32) (B1 : FVec Ideal Bias .f32)
    (WL2 WR2 : FVec Ideal Wt .f32) (B2 : FVec Ideal Bias .f32) : FVec Ideal Feat .f32 :=
  layerLin mean agg D (layerRelu mean agg D (layerRelu mean agg D x WL0 WR0 B0) WL1 WR1 B1) WL2 WR2 B2

/-- The network with the mean as a product is the network with the mean as a quotient. -/
theorem net_meanMul_eq (agg : FVec Ideal Feat .f32 → FVec Ideal Feat .f32) (D : FVec Ideal Node .f32)
    (x : FVec Ideal Feat .f32) (WL0 WR0 : FVec Ideal Wt .f32) (B0 : FVec Ideal Bias .f32)
    (WL1 WR1 : FVec Ideal Wt .f32) (B1 : FVec Ideal Bias .f32) (WL2 WR2 : FVec Ideal Wt .f32) (B2 : FVec Ideal Bias .f32) :
    net meanMul agg D x WL0 WR0 B0 WL1 WR1 B1 WL2 WR2 B2 = net meanDiv agg D x WL0 WR0 B0 WL1 WR1 B1 WL2 WR2 B2 := by
  have h : meanMul = meanDiv := funext fun S => funext fun D => meanMul_eq_meanDiv S D
  rw [h]

end Cert.Sage

end
-- ==== Proof.KRun.lean ====
/-
  The kernel's program runs, and its result array ends at the last dense stage's output.

  The program is three dense stages among stretches of host operations. Every weakly fair execution from any
  memory with zero counters terminates without a fault; in the final state every buffer that outlives the
  program holds what the last boundary's contents say: the result array what the third stage leaves in its
  output array, each argument array its launch contents. This is the library's launch theorem for a program of
  several stages over the generated segments and proof data, with the result array read off the final state
  beside the arguments.
-/
import proofs.«180433_j2164663517731_1_alg».proof.Proof.Gen.KernelIdeal.Frame
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program terminates, nothing faulting; the result array ends at the third
    stage's exit contents and the argument arrays as launched. -/
theorem run_value : θ_run defs (onTc (τ := τ) (main (F := Ideal))) ⟨m, fun _ => 0, ρ⟩ (fun r => ∀ c : Dev nD,
      r.2.mem ((c.tc : Thread nD τ).loc main_v57) = V6 m ρ c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Hand

end
-- ==== Proof.KHost.lean ====
/-
  The host side of the kernel's program, named: the edge vectors, the neighbour sums, the degrees, the
  reciprocal of the clamped degrees laid out as a column, and the mean as the program spells it (a product with
  that column repeated along the channels), read entry by entry as the product form of the mean.
-/
import proofs.«180433_j2164663517731_1_alg».proof.Proof.Gen.KernelIdeal
import proofs.«180433_j2164663517731_1_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.ValueIdx

/-- One 32-bit word per edge. -/
abbrev EdgeVec : Type := (⟨S600000, .i32⟩ : BufTy).Contents (Elt Ideal)

/-- The edges' destination nodes: row 1 of the edge array, as a vector. -/
def dstOf (E : (⟨S2x600000, .i32⟩ : BufTy).Contents (Elt Ideal)) : EdgeVec :=
  shapeCast _ (extractStridedSlice S1x600000 ![1, 0] E slices_S2x600000_S1x600000_1_0) shapeCasts_S1x600000_S600000

/-- The edges' source nodes: row 0 of the edge array, as a vector. -/
def srcOf (E : (⟨S2x600000, .i32⟩ : BufTy).Contents (Elt Ideal)) : EdgeVec :=
  shapeCast _ (extractStridedSlice S1x600000 ![0, 0] E slices_S2x600000_S1x600000_0_0) shapeCasts_S1x600000_S600000

/-- The neighbour sums of the features `h`: the rows of `h` at the edges' sources (a negative source counted from
    the end), added into the rows of a zero array at the edges' destinations. -/
def aggOf (dst src : EdgeVec) (h : FVec Ideal S50000x128 .f32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- The in-degrees: a one per edge added into a zero vector at the edge's destination. -/
def degOf (dst : EdgeVec) : FVec Ideal S50000 .f32 :=
  Host.scatterAdd scatter_S50000_S600000x1_S600000_n_0_0_1
    (broadcastInDim S50000 ![] bcast_S_S50000 (constant S_ .f32 0x00000000#32))
    (broadcastInDim S600000x1 ![0] bcast_S600000_S600000x1_0 dst)
    (broadcastInDim S600000 ![] bcast_S_S600000 (constant S_ .f32 0x3F800000#32))

/-- A weight matrix transposed, as the products take it. -/
def tr (W : FVec Ideal S128x128 .f32) : FVec Ideal S128x128 .f32 :=
  transpose S128x128 [1, 0] W transposes_S128x128_S128x128_1_0

/-- The reciprocal of the clamped degree, one per node, laid out as a column `[50000, 1]`. -/
def invOf (dst : EdgeVec) : (⟨S50000x1, .f32⟩ : BufTy).Contents (Elt Ideal) :=
  broadcastInDim S50000x1 ![0] bcast_S50000_S50000x1_0
    (Host.divf (broadcastInDim S50000 ![] bcast_S_S50000 (constant S_ .f32 0x3F800000#32))
      (maximumf (degOf dst) (broadcastInDim S50000 ![] bcast_S_S50000 (constant S_ .f32 0x3F800000#32))))

/-- The mean as the program spells it: the sums times the column repeated along the channels. -/
def meanOf (S : FVec Ideal S50000x128 .f32) (inv : (⟨S50000x1, .f32⟩ : BufTy).Contents (Elt Ideal)) : FVec Ideal S50000x128 .f32 :=
  mulf S (broadcastInDim S50000x128 ![0, 1] bcast_S50000x1_S50000x128_0_1 inv)

/-- Entry `(n, k)` of the repeated column is the node's reciprocal: the program's mean is the product form. -/
theorem meanOf_invOf (S : FVec Ideal S50000x128 .f32) (dst : EdgeVec) :
    meanOf S (invOf dst) = Cert.Sage.meanMul S (degOf dst) := by
  funext i
  unfold meanOf invOf Cert.Sage.meanMul
  rw [mulf_apply]
  have e1 : ∀ (y : (⟨S50000x1, .f32⟩ : BufTy).Contents (Elt Ideal)),
      broadcastInDim S50000x128 ![0, 1] bcast_S50000x1_S50000x128_0_1 y i = y (ix2 (i 0) (0 : Fin 1)) := fun y =>
    broadcastInDim_apply _ bcast_S50000x1_S50000x128_0_1 y i (ix2 (i 0) (0 : Fin 1)) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])
  have e2 : ∀ (y : FVec Ideal S50000 .f32),
      broadcastInDim S50000x1 ![0] bcast_S50000_S50000x1_0 y (ix2 (i 0) (0 : Fin 1)) = y (ix1 (i 0)) := fun y =>
    broadcastInDim_apply _ bcast_S50000_S50000x1_0 y (ix2 (i 0) (0 : Fin 1)) (ix1 (i 0)) (fun a => match a with
      | ⟨0, _⟩ => by show (i 0).val = if (50000 : Nat) = 1 then 0 else (i 0).val; rw [if_neg (by decide)])
  have e3 : ∀ (y : (⟨S_, .f32⟩ : BufTy).Contents (Elt Ideal)) (j : S50000.Idx),
      broadcastInDim S50000 ![] bcast_S_S50000 y j = y ix0 := fun y j =>
    broadcastInDim_apply _ bcast_S_S50000 y j ix0 (fun a => a.elim0)
  have e4 : ∀ (a b : FVec Ideal S50000 .f32) (j : S50000.Idx), Host.divf a b j = Ideal.div (a j) (b j) :=
    fun _ _ _ => rfl
  rw [e1, e2, e4, maximumf_apply, e3]
  rfl

end Cert.KernelIdeal.Hand

end
-- ==== Proof.LibRowBias.lean ====
/-
  A bias vector laid out as one row and repeated down the rows of a matrix, read at an entry.

  A kernel body adds a bias `b : [o]` to every row of an `[a, o]` block by casting it to `[1, o]` and broadcasting
  that row to `[a, o]`. Entry `(p, q)` of the result is `b q`, whatever the row `p`, for any extents and any
  element type.
-/
import Idealize.ShloMosaic.Lib.Pipeline.Value
import Idealize.ShloMosaic.Lib.ValueIdx
import Idealize.ShloMosaic.Lib.ValueLayout

namespace Cert.Gcn

open Idealize.ShloMosaic Idealize.ShloMosaic.ValueIdx

/-- Entry `(p, q)` of a `[o]` vector cast to `[1, o]` and broadcast to `[a, o]` is the vector's entry `q`. -/
theorem rowBias_apply {α : Type} {a o : ℕ} (v : (⟨1, ![o]⟩ : Shape).Idx → α)
    (h1 : (⟨1, ![o]⟩ : Shape).ShapeCasts ⟨2, ![1, o]⟩) (h2 : (⟨2, ![1, o]⟩ : Shape).Broadcasts ⟨2, ![a, o]⟩)
    (p : Fin a) (q : Fin o) :
    broadcastTo ⟨2, ![a, o]⟩ (shapeCast ⟨2, ![1, o]⟩ v h1) h2 (ix2 p q) = v (ix1 q) :=
  (broadcastTo_1b_ab_apply _ h2 p q).trans (shapeCast_a_1a_apply v h1 0 q)

end Cert.Gcn
-- ==== Proof.DenseBody.lean ====
/-
  The dense stage's body at one entry of a block.

  The body takes two row blocks `a`, `x` of 5000 rows and 128 channels, two 128 × 128 matrices `wl`, `wr` and a bias
  vector `b`, and leaves, at entry `(p, q)`,
      (∑ k, a (p, k) · wl (k, q)) + (∑ k, x (p, k) · wr (k, q)) + b q,
  under `max · 0` in the two hidden stages and as it is in the last one. Read on the extended reals the change of
  format before each product is the identity, and a product accumulated into the zero splat is the plain sum over the
  one contracted axis.
-/
import proofs.«180433_j2164663517731_1_alg».proof.Proof.Gen.KernelIdeal.Skeleton
import proofs.«180433_j2164663517731_1_alg».proof.Proof.Spec
import proofs.«180433_j2164663517731_1_alg».proof.Proof.LibRowBias
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The dimension numbers of the body's two products: axis 1 of the left operand against axis 0 of the right one. -/
abbrev DD : DotDims S5000x128 S128x128 S5000x128 := dot_S5000x128_S128x128_S5000x128_1_0_0_1_n_n

/-- The left operand's row is the output's row. -/
theorem lhs_row (i : S5000x128.Idx) (q : DD.contr.Idx) : (DD.lhsIdx i q 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl

/-- The left operand's column is the contracted coordinate. -/
theorem lhs_col (i : S5000x128.Idx) (q : DD.contr.Idx) : (DD.lhsIdx i q 1).val = (q ⟨0, by decide⟩).val :=
  DD.lhsIdx_val_of_single rfl i q

/-- The right operand's row is the contracted coordinate. -/
theorem rhs_row (i : S5000x128.Idx) (q : DD.contr.Idx) : (DD.rhsIdx i q 0).val = (q ⟨0, by decide⟩).val :=
  DD.rhsIdx_val_of_single rfl i q

/-- The right operand's column is the output's column. -/
theorem rhs_col (i : S5000x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- A product accumulated into the zero splat, at entry `(p, q)`: the sum over the contracted axis. -/
theorem matmul_entry {φ₁ φ₂ : FTy} (a : FVec Ideal S5000x128 φ₁) (w : FVec Ideal S128x128 φ₂) (p : Fin 5000) (q : Fin 128) :
    matmul (F := Ideal) DD none a w (constant (F := Ideal) S5000x128 .f32 0x00000000#32) (ix2 p q)
      = ∑ k : Fin 128, a (ix2 p k) * w (ix2 k q) := by
  show FloatOps.matmul DD none a w (constant (F := Ideal) S5000x128 .f32 0x00000000#32) (ix2 p q) = _
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun d => Fin.ext (by
    match d with
    | ⟨0, _⟩ => exact lhs_row _ _
    | ⟨1, _⟩ => exact (lhs_col _ _).trans hk)
  have er : DD.rhsIdx (ix2 p q) ((contrEquiv1 DD 128 rfl rfl).symm k) = ix2 k q := funext fun d => Fin.ext (by
    match d with
    | ⟨0, _⟩ => exact (rhs_row _ _).trans hk
    | ⟨1, _⟩ => exact rhs_col _ _)
  rw [el, er]

/-- Entry `(p, q)` of a block before the activation: the two products and the bias, summed in the body's order. -/
def blockLin (a x : Vec Ideal S5000x128 .f32) (wl wr : Vec Ideal S128x128 .f32) (b : Vec Ideal S128 .f32)
    (p : Fin 5000) (q : Fin 128) : EReal :=
  ((∑ k : Fin 128, a (ix2 p k) * wl (ix2 k q)) + (∑ k : Fin 128, x (ix2 p k) * wr (ix2 k q))) + b (ix1 q)

/-- The first stage's payload at an entry. -/
theorem k0_pay1_entry (a x : Vec Ideal S5000x128 .f32) (wl wr : Vec Ideal S128x128 .f32) (b : Vec Ideal S128 .f32)
    (p : Fin 5000) (q : Fin 128) :
    k0_pay1 (F := Ideal) a x wl wr b (ix2 p q) = max (blockLin a x wl wr b p q) 0 := by
  unfold k0_pay1 blockLin
  simp only [shapeCast_self]
  rw [maximumf_apply, addf_apply, addf_apply, matmul_entry, matmul_entry, broadcast_apply,
    Cert.Gcn.rowBias_apply b shapeCasts_S128_S1x128 broadcasts_S1x128_S5000x128 p q]
  show max _ (Ideal.ofBits .f32 0x00000000#32) = _
  rw [Ideal.ofBits_zero_f32]
  rfl

/-- The second stage's payload at an entry. -/
theorem k1_pay1_entry (a x : Vec Ideal S5000x128 .f32) (wl wr : Vec Ideal S128x128 .f32) (b : Vec Ideal S128 .f32)
    (p : Fin 5000) (q : Fin 128) :
    k1_pay1 (F := Ideal) a x wl wr b (ix2 p q) = max (blockLin a x wl wr b p q) 0 := by
  unfold k1_pay1 blockLin
  simp only [shapeCast_self]
  rw [maximumf_apply, addf_apply, addf_apply, matmul_entry, matmul_entry, broadcast_apply,
    Cert.Gcn.rowBias_apply b shapeCasts_S128_S1x128 broadcasts_S1x128_S5000x128 p q]
  show max _ (Ideal.ofBits .f32 0x00000000#32) = _
  rw [Ideal.ofBits_zero_f32]
  rfl

/-- The last stage's payload at an entry: no activation. -/
theorem k2_pay1_entry (a x : Vec Ideal S5000x128 .f32) (wl wr : Vec Ideal S128x128 .f32) (b : Vec Ideal S128 .f32)
    (p : Fin 5000) (q : Fin 128) :
    k2_pay1 (F := Ideal) a x wl wr b (ix2 p q) = blockLin a x wl wr b p q := by
  unfold k2_pay1 blockLin
  simp only [shapeCast_self]
  rw [addf_apply, addf_apply, matmul_entry, matmul_entry,
    Cert.Gcn.rowBias_apply b shapeCasts_S128_S1x128 broadcasts_S1x128_S5000x128 p q]
  rfl

/-! ## From a block's entry to the whole arrays' entry -/

/-- The zero offsets of a rank-2 access, as the constant function. -/
theorem zero2 : (![0, 0] : Fin 2 → Nat) = fun _ => 0 := funext fun a => by fin_cases a <;> rfl

/-- The zero offset of a rank-1 access, as the constant function. -/
theorem zero1 : (![0] : Fin 1 → Nat) = fun _ => 0 := funext fun a => by fin_cases a; rfl

/-- When the two row blocks are rows `n · 5000 …` of two arrays `A`, `X`, and the matrices and the bias are the whole
    arrays `WL`, `WR`, `B`, entry `(p, q)` of the block is entry `(n · 5000 + p, q)` of the layer on the whole arrays. -/
theorem blockLin_eq_linAt (a x : Vec Ideal S5000x128 .f32) (wl wr : Vec Ideal S128x128 .f32) (b : Vec Ideal S128 .f32)
    (A X : FVec Ideal Cert.Sage.Feat .f32) (WL WR : FVec Ideal Cert.Sage.Wt .f32) (B : FVec Ideal Cert.Sage.Bias .f32) (n : Nat)
    (ha : ∀ (p : Fin 5000) (k : Fin 128) (r : Fin 50000), r.val = n * 5000 + p.val → a (ix2 p k) = A (ix2 r k))
    (hx : ∀ (p : Fin 5000) (k : Fin 128) (r : Fin 50000), r.val = n * 5000 + p.val → x (ix2 p k) = X (ix2 r k))
    (hwl : ∀ k q : Fin 128, wl (ix2 k q) = WL (ix2 k q)) (hwr : ∀ k q : Fin 128, wr (ix2 k q) = WR (ix2 k q))
    (hb : ∀ q : Fin 128, b (ix1 q) = B (ix1 q))
    (p : Fin 5000) (q : Fin 128) (r : Fin 50000) (hr : r.val = n * 5000 + p.val) :
    blockLin a x wl wr b p q = Cert.Sage.linAt A X WL WR B r q := by
  unfold blockLin Cert.Sage.linAt
  rw [hb q]
  congr 2
  · exact Finset.sum_congr rfl fun k _ => by rw [ha p k r hr, hwl k q]
  · exact Finset.sum_congr rfl fun k _ => by rw [hx p k r hr, hwr k q]

/-- The same at an index of the block and an index of the array given by their coordinates. -/
theorem blockLin_eq_linAt_idx (a x : Vec Ideal S5000x128 .f32) (wl wr : Vec Ideal S128x128 .f32) (b : Vec Ideal S128 .f32)
    (A X : FVec Ideal Cert.Sage.Feat .f32) (WL WR : FVec Ideal Cert.Sage.Wt .f32) (B : FVec Ideal Cert.Sage.Bias .f32) (n : Nat)
    (ha : ∀ (p : Fin 5000) (k : Fin 128) (r : Fin 50000), r.val = n * 5000 + p.val → a (ix2 p k) = A (ix2 r k))
    (hx : ∀ (p : Fin 5000) (k : Fin 128) (r : Fin 50000), r.val = n * 5000 + p.val → x (ix2 p k) = X (ix2 r k))
    (hwl : ∀ k q : Fin 128, wl (ix2 k q) = WL (ix2 k q)) (hwr : ∀ k q : Fin 128, wr (ix2 k q) = WR (ix2 k q))
    (hb : ∀ q : Fin 128, b (ix1 q) = B (ix1 q))
    (pay : FVec Ideal S5000x128 .f32) (act : EReal → EReal)
    (hpay : ∀ (p : Fin 5000) (q : Fin 128), pay (ix2 p q) = act (blockLin a x wl wr b p q))
    (j : S5000x128.Idx) (i : S50000x128.Idx) (hi0 : (i 0).val = n * 5000 + (j 0).val) (hi1 : (i 1).val = (j 1).val) :
    pay j = act (Cert.Sage.linAt A X WL WR B (i 0) (i 1)) := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = n * 5000 + p.val := hi0
  obtain rfl : s = q := Fin.ext hi1
  rw [hpay, blockLin_eq_linAt a x wl wr b A X WL WR B n ha hx hwl hwr hb p s r hr]

end Cert.KernelIdeal.Hand

end
-- ==== Proof.Region2.lean ====
/-
  The last dense stage as one function of whole arrays.

  The stage runs over 10 grid points. Point `t` stages rows `5000 t … 5000 t + 4999` of the two feature arrays, the two
  weight matrices and the bias whole, and writes back rows `5000 t …` of the result. Each point's block is the same
  rows of the layer function of the whole arrays, and the ten blocks cover the result: row `r` is in the block of
  point `r / 5000`. So the result array ends as that layer function.
-/
import proofs.«180433_j2164663517731_1_alg».proof.Proof.Gen.KernelIdeal.Frame
import proofs.«180433_j2164663517731_1_alg».proof.Proof.Spec
import proofs.«180433_j2164663517731_1_alg».proof.Proof.DenseBody
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices at point `t`: the row blocks (windows 0, 1 and the result's, 5) are block `t` of the rows and
    block 0 of the channels; the matrices and the bias are their one whole block. Decided over the ten points. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Window 0's block at point `t`, entry `(p, k)`: row `5000 t + p` of its array. -/
theorem rows2_0 (c : Dev nD) (t : Fin cfg2.N) (p : Fin 5000) (k : Fin 128) (r : Fin 50000) (hr : r.val = t.val * 5000 + p.val) :
    (iblk2 V c 0 t : Vec Ideal S5000x128 .f32) (ix2 p k) = (V c main_v54 : S50000x128.Idx → Elt Ideal .f32) (ix2 r k) := by
  obtain ⟨e0, e1, -⟩ := blockIdx2 t
  unfold iblk2
  rw [View.read_apply]
  show V c main_v54 _ = V c main_v54 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Window 1's block at point `t`, entry `(p, k)`: row `5000 t + p` of its array. -/
theorem rows2_1 (c : Dev nD) (t : Fin cfg2.N) (p : Fin 5000) (k : Fin 128) (r : Fin 50000) (hr : r.val = t.val * 5000 + p.val) :
    (iblk2 V c 1 t : Vec Ideal S5000x128 .f32) (ix2 p k) = (V c main_v42 : S50000x128.Idx → Elt Ideal .f32) (ix2 r k) := by
  obtain ⟨-, -, e0, e1, -⟩ := blockIdx2 t
  unfold iblk2
  rw [View.read_apply]
  show V c main_v42 _ = V c main_v42 _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- Window 2's block at any point is its whole matrix. -/
theorem whole2_2 (c : Dev nD) (t : Fin cfg2.N) (k q : Fin 128) :
    (iblk2 V c 2 t : Vec Ideal S128x128 .f32) (ix2 k q) = (V c main_v55 : S128x128.Idx → Elt Ideal .f32) (ix2 k q) := by
  obtain ⟨-, -, -, -, e0, e1, -⟩ := blockIdx2 t
  unfold iblk2
  rw [View.read_apply]
  show V c main_v55 _ = V c main_v55 _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- Window 3's block at any point is its whole matrix. -/
theorem whole2_3 (c : Dev nD) (t : Fin cfg2.N) (k q : Fin 128) :
    (iblk2 V c 3 t : Vec Ideal S128x128 .f32) (ix2 k q) = (V c main_v56 : S128x128.Idx → Elt Ideal .f32) (ix2 k q) := by
  obtain ⟨-, -, -, -, -, -, e0, e1, -⟩ := blockIdx2 t
  unfold iblk2
  rw [View.read_apply]
  show V c main_v56 _ = V c main_v56 _
  congr 1
  funext a
  apply Fin.ext
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- Window 4's block at any point is its whole vector. -/
theorem whole2_4 (c : Dev nD) (t : Fin cfg2.N) (q : Fin 128) :
    (iblk2 V c 4 t : Vec Ideal S128 .f32) (ix1 q) = (V c main_arg10 : S128.Idx → Elt Ideal .f32) (ix1 q) := by
  obtain ⟨-, -, -, -, -, -, -, -, e0, -⟩ := blockIdx2 t
  unfold iblk2
  rw [View.read_apply]
  show V c main_arg10 _ = V c main_arg10 _
  congr 1
  funext a
  apply Fin.ext
  match a with
  | ⟨0, _⟩ => show win2_4.index t (0 : Fin 1) * 128 + 1 * q.val = q.val; rw [e0]; omega

/-- What point `t` writes back is block `t` of the layer function of the whole arrays. -/
theorem flushed2 (c : Dev nD) (t : Fin cfg2.N) :
    (dat2 V c).flushed 5 t = ((cfg2.win 5).blk t).view.read (Elt Ideal)
      (Cert.Sage.denseLin (V c main_v54) (V c main_v42) (V c main_v55) (V c main_v56) (V c main_arg10)) := by
  show (cfg2.win 5).cut (grid2.coords t) ((dat2 V c).after 5 t) = _
  rw [after2_5]
  unfold out2_5
  rw [View.canon_unit_zero zero2]
  simp only [View.ld_unit_zero (S := S5000x128) zero2, View.ld_unit_zero (S := S128x128) zero2, View.ld_unit_zero (S := S128) zero1]
  obtain ⟨-, -, -, -, -, -, -, -, -, e0, e1⟩ := blockIdx2 t
  funext j
  show k2_pay1 (iblk2 V c 0 t) (iblk2 V c 1 t) (iblk2 V c 2 t) (iblk2 V c 3 t) (iblk2 V c 4 t) j
    = Cert.Sage.denseLin (V c main_v54) (V c main_v42) (V c main_v55) (V c main_v56) (V c main_arg10) (((cfg2.win 5).blk t).view.emb j)
  refine blockLin_eq_linAt_idx (iblk2 V c 0 t) (iblk2 V c 1 t) (iblk2 V c 2 t) (iblk2 V c 3 t) (iblk2 V c 4 t)
    (V c main_v54) (V c main_v42) (V c main_v55) (V c main_v56) (V c main_arg10) t.val
    (rows2_0 V c t) (rows2_1 V c t) (whole2_2 V c t) (whole2_3 V c t) (whole2_4 V c t)
    _ (fun e => e) (k2_pay1_entry _ _ _ _ _) j (((cfg2.win 5).blk t).view.emb j) ?_ ?_
  · show win2_5.index t (0 : Fin 2) * 5000 + 1 * (j 0).val = t.val * 5000 + (j 0).val
    rw [e0]; omega
  · show win2_5.index t (1 : Fin 2) * 128 + 1 * (j 1).val = (j 1).val
    rw [e1]; omega

/-- An index of the result is in point `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v57).slice (win2_5.rect t)).set ↔ _
  rw [View.set_slice_whole, Rect.mem_set_unit]
  exact Iff.rfl

/-- Every index of the result is in some point's block: row `r` in that of point `r / 5000`. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 :=
    ⟨⟨(i 0).val / 5000, by show (i 0).val / 5000 < grid2.N; rw [hN]; omega⟩, rfl⟩
  obtain ⟨-, -, -, -, -, -, -, -, -, e0, e1⟩ := blockIdx2 t
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 128 ≤ (i 1).val ∧ (i 1).val < win2_5.index t (1 : Fin 2) * 128 + 128
    rw [e1]; omega

/-- The array the last dense stage leaves: the layer function of the arrays its five input windows stage. -/
theorem region2_value (c : Dev nD) :
    (dat2 V c).arrAt 5 cfg2.N
      = Cert.Sage.denseLin (V c main_v54) (V c main_v42) (V c main_v55) (V c main_v56) (V c main_arg10) :=
  (dat2 V c).arrAt_eq_of_cover 5 _ (fun t _ => flushed2 V c t) cover2

end Cert.KernelIdeal.Hand

end
-- ==== Proof.Region1.lean ====
/-
  The second dense stage as one function of whole arrays.

  The stage runs over 10 grid points. Point `t` stages rows `5000 t … 5000 t + 4999` of the two feature arrays, the two
  weight matrices and the bias whole, and writes back rows `5000 t …` of the result. Each point's block is the same
  rows of the layer function of the whole arrays, and the ten blocks cover the result: row `r` is in the block of
  point `r / 5000`. So the result array ends as that layer function.
-/
import proofs.«180433_j2164663517731_1_alg».proof.Proof.Gen.KernelIdeal.Frame
import proofs.«180433_j2164663517731_1_alg».proof.Proof.Spec
import proofs.«180433_j2164663517731_1_alg».proof.Proof.DenseBody
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices at point `t`: the row blocks (windows 0, 1 and the result's, 5) are block `t` of the rows and
    block 0 of the channels; the matrices and the bias are their one whole block. Decided over the ten points. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Window 0's block at point `t`, entry `(p, k)`: row `5000 t + p` of its array. -/
theorem rows1_0 (c : Dev nD) (t : Fin cfg1.N) (p : Fin 5000) (k : Fin 128) (r : Fin 50000) (hr : r.val = t.val * 5000 + p.val) :
    (iblk1 V c 0 t : Vec Ideal S5000x128 .f32) (ix2 p k) = (V c main_v39 : S50000x128.Idx → Elt Ideal .f32) (ix2 r k) := by
  obtain ⟨e0, e1, -⟩ := blockIdx1 t
  unfold iblk1
  rw [View.read_apply]
  show V c main_v39 _ = V c main_v39 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Window 1's block at point `t`, entry `(p, k)`: row `5000 t + p` of its array. -/
theorem rows1_1 (c : Dev nD) (t : Fin cfg1.N) (p : Fin 5000) (k : Fin 128) (r : Fin 50000) (hr : r.val = t.val * 5000 + p.val) :
    (iblk1 V c 1 t : Vec Ideal S5000x128 .f32) (ix2 p k) = (V c main_v27 : S50000x128.Idx → Elt Ideal .f32) (ix2 r k) := by
  obtain ⟨-, -, e0, e1, -⟩ := blockIdx1 t
  unfold iblk1
  rw [View.read_apply]
  show V c main_v27 _ = V c main_v27 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- Window 2's block at any point is its whole matrix. -/
theorem whole1_2 (c : Dev nD) (t : Fin cfg1.N) (k q : Fin 128) :
    (iblk1 V c 2 t : Vec Ideal S128x128 .f32) (ix2 k q) = (V c main_v40 : S128x128.Idx → Elt Ideal .f32) (ix2 k q) := by
  obtain ⟨-, -, -, -, e0, e1, -⟩ := blockIdx1 t
  unfold iblk1
  rw [View.read_apply]
  show V c main_v40 _ = V c main_v40 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- Window 3's block at any point is its whole matrix. -/
theorem whole1_3 (c : Dev nD) (t : Fin cfg1.N) (k q : Fin 128) :
    (iblk1 V c 3 t : Vec Ideal S128x128 .f32) (ix2 k q) = (V c main_v41 : S128x128.Idx → Elt Ideal .f32) (ix2 k q) := by
  obtain ⟨-, -, -, -, -, -, e0, e1, -⟩ := blockIdx1 t
  unfold iblk1
  rw [View.read_apply]
  show V c main_v41 _ = V c main_v41 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- Window 4's block at any point is its whole vector. -/
theorem whole1_4 (c : Dev nD) (t : Fin cfg1.N) (q : Fin 128) :
    (iblk1 V c 4 t : Vec Ideal S128 .f32) (ix1 q) = (V c main_arg7 : S128.Idx → Elt Ideal .f32) (ix1 q) := by
  obtain ⟨-, -, -, -, -, -, -, -, e0, -⟩ := blockIdx1 t
  unfold iblk1
  rw [View.read_apply]
  show V c main_arg7 _ = V c main_arg7 _
  congr 1
  funext a
  apply Fin.ext
  match a with
  | ⟨0, _⟩ => show win1_4.index t (0 : Fin 1) * 128 + 1 * q.val = q.val; rw [e0]; omega

/-- What point `t` writes back is block `t` of the layer function of the whole arrays. -/
theorem flushed1 (c : Dev nD) (t : Fin cfg1.N) :
    (dat1 V c).flushed 5 t = ((cfg1.win 5).blk t).view.read (Elt Ideal)
      (Cert.Sage.denseRelu (V c main_v39) (V c main_v27) (V c main_v40) (V c main_v41) (V c main_arg7)) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S128) zero1]
  obtain ⟨-, -, -, -, -, -, -, -, -, e0, e1⟩ := blockIdx1 t
  funext j
  show k1_pay1 (iblk1 V c 0 t) (iblk1 V c 1 t) (iblk1 V c 2 t) (iblk1 V c 3 t) (iblk1 V c 4 t) j
    = Cert.Sage.denseRelu (V c main_v39) (V c main_v27) (V c main_v40) (V c main_v41) (V c main_arg7) (((cfg1.win 5).blk t).view.emb j)
  refine blockLin_eq_linAt_idx (iblk1 V c 0 t) (iblk1 V c 1 t) (iblk1 V c 2 t) (iblk1 V c 3 t) (iblk1 V c 4 t)
    (V c main_v39) (V c main_v27) (V c main_v40) (V c main_v41) (V c main_arg7) t.val
    (rows1_0 V c t) (rows1_1 V c t) (whole1_2 V c t) (whole1_3 V c t) (whole1_4 V c t)
    _ (fun e => max e 0) (k1_pay1_entry _ _ _ _ _) j (((cfg1.win 5).blk t).view.emb j) ?_ ?_
  · show win1_5.index t (0 : Fin 2) * 5000 + 1 * (j 0).val = t.val * 5000 + (j 0).val
    rw [e0]; omega
  · show win1_5.index t (1 : Fin 2) * 128 + 1 * (j 1).val = (j 1).val
    rw [e1]; omega

/-- An index of the result is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v42).slice (win1_5.rect t)).set ↔ _
  rw [View.set_slice_whole, Rect.mem_set_unit]
  exact Iff.rfl

/-- Every index of the result is in some point's block: row `r` in that of point `r / 5000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, -, -, -, e0, e1⟩ := blockIdx1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-- The array the second dense stage leaves: the layer function of the arrays its five input windows stage. -/
theorem region1_value (c : Dev nD) :
    (dat1 V c).arrAt 5 cfg1.N
      = Cert.Sage.denseRelu (V c main_v39) (V c main_v27) (V c main_v40) (V c main_v41) (V c main_arg7) :=
  (dat1 V c).arrAt_eq_of_cover 5 _ (fun t _ => flushed1 V c t) cover1

end Cert.KernelIdeal.Hand

end
-- ==== Proof.Region0.lean ====
/-
  The first dense stage as one function of whole arrays.

  The stage runs over 10 grid points. Point `t` stages rows `5000 t … 5000 t + 4999` of the two feature arrays, the two
  weight matrices and the bias whole, and writes back rows `5000 t …` of the result. Each point's block is the same
  rows of the layer function of the whole arrays, and the ten blocks cover the result: row `r` is in the block of
  point `r / 5000`. So the result array ends as that layer function.
-/
import proofs.«180433_j2164663517731_1_alg».proof.Proof.Gen.KernelIdeal.Frame
import proofs.«180433_j2164663517731_1_alg».proof.Proof.Spec
import proofs.«180433_j2164663517731_1_alg».proof.Proof.DenseBody
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices at point `t`: the row blocks (windows 0, 1 and the result's, 5) are block `t` of the rows and
    block 0 of the channels; the matrices and the bias are their one whole block. Decided over the ten points. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Window 0's block at point `t`, entry `(p, k)`: row `5000 t + p` of its array. -/
theorem rows0_0 (c : Dev nD) (t : Fin cfg0.N) (p : Fin 5000) (k : Fin 128) (r : Fin 50000) (hr : r.val = t.val * 5000 + p.val) :
    (iblk0 V c 0 t : Vec Ideal S5000x128 .f32) (ix2 p k) = (V c main_v24 : S50000x128.Idx → Elt Ideal .f32) (ix2 r k) := by
  obtain ⟨e0, e1, -⟩ := blockIdx0 t
  unfold iblk0
  rw [View.read_apply]
  show V c main_v24 _ = V c main_v24 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Window 1's block at point `t`, entry `(p, k)`: row `5000 t + p` of its array. -/
theorem rows0_1 (c : Dev nD) (t : Fin cfg0.N) (p : Fin 5000) (k : Fin 128) (r : Fin 50000) (hr : r.val = t.val * 5000 + p.val) :
    (iblk0 V c 1 t : Vec Ideal S5000x128 .f32) (ix2 p k) = (V c main_arg0 : S50000x128.Idx → Elt Ideal .f32) (ix2 r k) := by
  obtain ⟨-, -, e0, e1, -⟩ := blockIdx0 t
  unfold iblk0
  rw [View.read_apply]
  show V c main_arg0 _ = V c main_arg0 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Window 2's block at any point is its whole matrix. -/
theorem whole0_2 (c : Dev nD) (t : Fin cfg0.N) (k q : Fin 128) :
    (iblk0 V c 2 t : Vec Ideal S128x128 .f32) (ix2 k q) = (V c main_v25 : S128x128.Idx → Elt Ideal .f32) (ix2 k q) := by
  obtain ⟨-, -, -, -, e0, e1, -⟩ := blockIdx0 t
  unfold iblk0
  rw [View.read_apply]
  show V c main_v25 _ = V c main_v25 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Window 3's block at any point is its whole matrix. -/
theorem whole0_3 (c : Dev nD) (t : Fin cfg0.N) (k q : Fin 128) :
    (iblk0 V c 3 t : Vec Ideal S128x128 .f32) (ix2 k q) = (V c main_v26 : S128x128.Idx → Elt Ideal .f32) (ix2 k q) := by
  obtain ⟨-, -, -, -, -, -, e0, e1, -⟩ := blockIdx0 t
  unfold iblk0
  rw [View.read_apply]
  show V c main_v26 _ = V c main_v26 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Window 4's block at any point is its whole vector. -/
theorem whole0_4 (c : Dev nD) (t : Fin cfg0.N) (q : Fin 128) :
    (iblk0 V c 4 t : Vec Ideal S128 .f32) (ix1 q) = (V c main_arg4 : S128.Idx → Elt Ideal .f32) (ix1 q) := by
  obtain ⟨-, -, -, -, -, -, -, -, e0, -⟩ := blockIdx0 t
  unfold iblk0
  rw [View.read_apply]
  show V c main_arg4 _ = V c main_arg4 _
  congr 1
  funext a
  apply Fin.ext
  match a with
  | ⟨0, _⟩ => show win0_4.index t (0 : Fin 1) * 128 + 1 * q.val = q.val; rw [e0]; omega

/-- What point `t` writes back is block `t` of the layer function of the whole arrays. -/
theorem flushed0 (c : Dev nD) (t : Fin cfg0.N) :
    (dat0 V c).flushed 5 t = ((cfg0.win 5).blk t).view.read (Elt Ideal)
      (Cert.Sage.denseRelu (V c main_v24) (V c main_arg0) (V c main_v25) (V c main_v26) (V c main_arg4)) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  obtain ⟨-, -, -, -, -, -, -, -, -, e0, e1⟩ := blockIdx0 t
  funext j
  show k0_pay1 (iblk0 V c 0 t) (iblk0 V c 1 t) (iblk0 V c 2 t) (iblk0 V c 3 t) (iblk0 V c 4 t) j
    = Cert.Sage.denseRelu (V c main_v24) (V c main_arg0) (V c main_v25) (V c main_v26) (V c main_arg4) (((cfg0.win 5).blk t).view.emb j)
  refine blockLin_eq_linAt_idx (iblk0 V c 0 t) (iblk0 V c 1 t) (iblk0 V c 2 t) (iblk0 V c 3 t) (iblk0 V c 4 t)
    (V c main_v24) (V c main_arg0) (V c main_v25) (V c main_v26) (V c main_arg4) t.val
    (rows0_0 V c t) (rows0_1 V c t) (whole0_2 V c t) (whole0_3 V c t) (whole0_4 V c t)
    _ (fun e => max e 0) (k0_pay1_entry _ _ _ _ _) j (((cfg0.win 5).blk t).view.emb j) ?_ ?_
  · show win0_5.index t (0 : Fin 2) * 5000 + 1 * (j 0).val = t.val * 5000 + (j 0).val
    rw [e0]; omega
  · show win0_5.index t (1 : Fin 2) * 128 + 1 * (j 1).val = (j 1).val
    rw [e1]; omega

/-- An index of the result is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v27).slice (win0_5.rect t)).set ↔ _
  rw [View.set_slice_whole, Rect.mem_set_unit]
  exact Iff.rfl

/-- Every index of the result is in some point's block: row `r` in that of point `r / 5000`. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, -, -, -, -, -, e0, e1⟩ := blockIdx0 t
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- The array the first dense stage leaves: the layer function of the arrays its five input windows stage. -/
theorem region0_value (c : Dev nD) :
    (dat0 V c).arrAt 5 cfg0.N
      = Cert.Sage.denseRelu (V c main_v24) (V c main_arg0) (V c main_v25) (V c main_v26) (V c main_arg4) :=
  (dat0 V c).arrAt_eq_of_cover 5 _ (fun t _ => flushed0 V c t) cover0

end Cert.KernelIdeal.Hand

end
-- ==== Proof.Chain0.lean ====
/-
  The first layer of the kernel's program: what its host operations hand the first dense stage, what that stage
  leaves, and what the later host operations still find of the edge vectors and the reciprocal column.

  Before the first dense stage the host operations compute, from the edge array, the destination and source
  vectors, the degrees, the reciprocal column, the neighbour sums of the input features and their mean (as a
  product), and the two transposed weight matrices. The stage's output array is then the first hidden layer,
  and every other buffer keeps what it held.
-/
import proofs.«180433_j2164663517731_1_alg».proof.Proof.Gen.KernelIdeal.Frame
import proofs.«180433_j2164663517731_1_alg».proof.Proof.KHost
import proofs.«180433_j2164663517731_1_alg».proof.Proof.Region0
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The edge array as launched. -/
abbrev edges (c : Dev nD) : (⟨S2x600000, .i32⟩ : BufTy).Contents (Elt Ideal) := (m ((c.tc : Thread nD τ).loc main_arg1))

/-! ## What the first stage is entered with -/

set_option maxHeartbeats 4000000 in
theorem V1_v1 (c : Dev nD) : V1 m ρ c main_v1 = srcOf (edges m c) := by
  dsimp only [V1, W1, hostOps0]
  after_results_simp
  rfl

set_option maxHeartbeats 4000000 in
theorem V1_v3 (c : Dev nD) : V1 m ρ c main_v3 = dstOf (edges m c) := by
  dsimp only [V1, W1, hostOps0]
  after_results_simp
  rfl

set_option maxHeartbeats 4000000 in
theorem V1_v12 (c : Dev nD) : V1 m ρ c main_v12 = invOf (dstOf (edges m c)) := by
  dsimp only [V1, W1, hostOps0]
  after_results_simp
  rfl

set_option maxHeartbeats 4000000 in
theorem V1_v24 (c : Dev nD) :
    V1 m ρ c main_v24 = meanOf (aggOf (dstOf (edges m c)) (srcOf (edges m c)) (m ((c.tc : Thread nD τ).loc main_arg0))) (invOf (dstOf (edges m c))) := by
  dsimp only [V1, W1, hostOps0]
  after_results_simp
  rfl

set_option maxHeartbeats 4000000 in
theorem V1_v25 (c : Dev nD) : V1 m ρ c main_v25 = tr (m ((c.tc : Thread nD τ).loc main_arg2)) := by
  dsimp only [V1, W1, hostOps0]
  after_results_simp
  rfl

set_option maxHeartbeats 4000000 in
theorem V1_v26 (c : Dev nD) : V1 m ρ c main_v26 = tr (m ((c.tc : Thread nD τ).loc main_arg3)) := by
  dsimp only [V1, W1, hostOps0]
  after_results_simp
  rfl

set_option maxHeartbeats 4000000 in
/-- No host operation writes an argument: each is entered as launched. -/
theorem V1_arg (c : Dev nD) :
    V1 m ρ c main_arg0 = (m ((c.tc : Thread nD τ).loc main_arg0)) ∧ V1 m ρ c main_arg4 = (m ((c.tc : Thread nD τ).loc main_arg4))
    ∧ V1 m ρ c main_arg5 = (m ((c.tc : Thread nD τ).loc main_arg5)) ∧ V1 m ρ c main_arg6 = (m ((c.tc : Thread nD τ).loc main_arg6)) ∧ V1 m ρ c main_arg7 = (m ((c.tc : Thread nD τ).loc main_arg7))
    ∧ V1 m ρ c main_arg8 = (m ((c.tc : Thread nD τ).loc main_arg8)) ∧ V1 m ρ c main_arg9 = (m ((c.tc : Thread nD τ).loc main_arg9)) ∧ V1 m ρ c main_arg10 = (m ((c.tc : Thread nD τ).loc main_arg10)) := by
  refine ⟨?_, ?_, ?_, ?_, ?_, ?_, ?_, ?_⟩ <;> (dsimp only [V1, W1, hostOps0]; after_results_simp)

/-! ## What the first stage leaves -/

/-- The first hidden layer. -/
abbrev hidden1 (c : Dev nD) : FVec Ideal S50000x128 .f32 :=
  Cert.Sage.layerRelu Cert.Sage.meanMul (aggOf (dstOf (edges m c)) (srcOf (edges m c))) (degOf (dstOf (edges m c)))
    (m ((c.tc : Thread nD τ).loc main_arg0)) (tr (m ((c.tc : Thread nD τ).loc main_arg2))) (tr (m ((c.tc : Thread nD τ).loc main_arg3))) (m ((c.tc : Thread nD τ).loc main_arg4))

/-- The stage's output array holds the first hidden layer. -/
theorem V2_out (c : Dev nD) : V2 m ρ c main_v27 = hidden1 m c := by
  refine ((W2_arr m ρ c 5).trans (region0_value (V1 m ρ) c)).trans ?_
  rw [V1_v24, V1_v25, V1_v26, (V1_arg m ρ c).1, (V1_arg m ρ c).2.1, meanOf_invOf]
  rfl

/-- Every buffer that is not one of the stage's arrays keeps what it was entered with. -/
theorem V2_v1 (c : Dev nD) : V2 m ρ c main_v1 = srcOf (edges m c) :=
  (W2_of_ne m ρ c main_v1 (by decide)).trans (V1_v1 m ρ c)
theorem V2_v3 (c : Dev nD) : V2 m ρ c main_v3 = dstOf (edges m c) :=
  (W2_of_ne m ρ c main_v3 (by decide)).trans (V1_v3 m ρ c)
theorem V2_v12 (c : Dev nD) : V2 m ρ c main_v12 = invOf (dstOf (edges m c)) :=
  (W2_of_ne m ρ c main_v12 (by decide)).trans (V1_v12 m ρ c)
theorem V2_arg (c : Dev nD) :
    V2 m ρ c main_arg5 = (m ((c.tc : Thread nD τ).loc main_arg5)) ∧ V2 m ρ c main_arg6 = (m ((c.tc : Thread nD τ).loc main_arg6)) ∧ V2 m ρ c main_arg7 = (m ((c.tc : Thread nD τ).loc main_arg7))
    ∧ V2 m ρ c main_arg8 = (m ((c.tc : Thread nD τ).loc main_arg8)) ∧ V2 m ρ c main_arg9 = (m ((c.tc : Thread nD τ).loc main_arg9)) ∧ V2 m ρ c main_arg10 = (m ((c.tc : Thread nD τ).loc main_arg10)) :=
  ⟨(W2_of_ne m ρ c main_arg5 (by decide)).trans (V1_arg m ρ c).2.2.1,
   (W2_of_ne m ρ c main_arg6 (by decide)).trans (V1_arg m ρ c).2.2.2.1,
   (W2_of_ne m ρ c main_arg7 (by decide)).trans (V1_arg m ρ c).2.2.2.2.1,
   (W2_of_ne m ρ c main_arg8 (by decide)).trans (V1_arg m ρ c).2.2.2.2.2.1,
   (W2_of_ne m ρ c main_arg9 (by decide)).trans (V1_arg m ρ c).2.2.2.2.2.2.1,
   (W2_of_ne m ρ c main_arg10 (by decide)).trans (V1_arg m ρ c).2.2.2.2.2.2.2⟩

end Cert.KernelIdeal.Hand

end
-- ==== Proof.Chain1.lean ====
/-
  The second layer of the kernel's program. Between the first and the second dense stage the host operations
  take the neighbour sums of the first hidden layer (the same edge vectors, still in their buffers), their mean
  with the same reciprocal column, and the second layer's transposed weights; the stage's output array is the
  second hidden layer.
-/
import proofs.«180433_j2164663517731_1_alg».proof.Proof.Gen.KernelIdeal.Frame
import proofs.«180433_j2164663517731_1_alg».proof.Proof.KHost
import proofs.«180433_j2164663517731_1_alg».proof.Proof.Region1
import proofs.«180433_j2164663517731_1_alg».proof.Proof.Chain0
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## What the stage is entered with -/

set_option maxHeartbeats 4000000 in
theorem V3_mean (c : Dev nD) :
    V3 m ρ c main_v39 = meanOf (aggOf (dstOf (edges m c)) (srcOf (edges m c)) (hidden1 m c)) (invOf (dstOf (edges m c))) := by
  have e : V3 m ρ c main_v39
      = meanOf (aggOf (V2 m ρ c main_v3) (V2 m ρ c main_v1) (V2 m ρ c main_v27)) (V2 m ρ c main_v12) := by
    dsimp only [V3, W3, hostOps1]; after_results_simp
    rfl
  rw [e, V2_v3, V2_v1, V2_out, V2_v12]

set_option maxHeartbeats 4000000 in
theorem V3_feat (c : Dev nD) : V3 m ρ c main_v27 = hidden1 m c := by
  dsimp only [V3, W3, hostOps1]; after_results_simp
  exact V2_out m ρ c

set_option maxHeartbeats 4000000 in
theorem V3_wl (c : Dev nD) : V3 m ρ c main_v40 = tr (m ((c.tc : Thread nD τ).loc main_arg5)) := by
  have e : V3 m ρ c main_v40 = tr (V2 m ρ c main_arg5) := by
    dsimp only [V3, W3, hostOps1]; after_results_simp
    rfl
  rw [e, (V2_arg m ρ c).1]

set_option maxHeartbeats 4000000 in
theorem V3_wr (c : Dev nD) : V3 m ρ c main_v41 = tr (m ((c.tc : Thread nD τ).loc main_arg6)) := by
  have e : V3 m ρ c main_v41 = tr (V2 m ρ c main_arg6) := by
    dsimp only [V3, W3, hostOps1]; after_results_simp
    rfl
  rw [e, (V2_arg m ρ c).2.1]

set_option maxHeartbeats 4000000 in
theorem V3_bias (c : Dev nD) : V3 m ρ c main_arg7 = (m ((c.tc : Thread nD τ).loc main_arg7)) := by
  dsimp only [V3, W3, hostOps1]; after_results_simp
  exact (V2_arg m ρ c).2.2.1

set_option maxHeartbeats 4000000 in
theorem V3_v1 (c : Dev nD) : V3 m ρ c main_v1 = srcOf (edges m c) := by
  dsimp only [V3, W3, hostOps1]; after_results_simp
  exact V2_v1 m ρ c

set_option maxHeartbeats 4000000 in
theorem V3_v3 (c : Dev nD) : V3 m ρ c main_v3 = dstOf (edges m c) := by
  dsimp only [V3, W3, hostOps1]; after_results_simp
  exact V2_v3 m ρ c

set_option maxHeartbeats 4000000 in
theorem V3_v12 (c : Dev nD) : V3 m ρ c main_v12 = invOf (dstOf (edges m c)) := by
  dsimp only [V3, W3, hostOps1]; after_results_simp
  exact V2_v12 m ρ c

set_option maxHeartbeats 4000000 in
theorem V3_arg (c : Dev nD) :
    V3 m ρ c main_arg8 = (m ((c.tc : Thread nD τ).loc main_arg8)) ∧ V3 m ρ c main_arg9 = (m ((c.tc : Thread nD τ).loc main_arg9)) ∧ V3 m ρ c main_arg10 = (m ((c.tc : Thread nD τ).loc main_arg10)) := by
  refine ⟨?_, ?_, ?_⟩
  · dsimp only [V3, W3, hostOps1]; after_results_simp
    exact (V2_arg m ρ c).2.2.2.1
  · dsimp only [V3, W3, hostOps1]; after_results_simp
    exact (V2_arg m ρ c).2.2.2.2.1
  · dsimp only [V3, W3, hostOps1]; after_results_simp
    exact (V2_arg m ρ c).2.2.2.2.2

/-! ## What the stage leaves -/

/-- The second hidden layer. -/
abbrev hidden2 (c : Dev nD) : FVec Ideal S50000x128 .f32 :=
  Cert.Sage.layerRelu Cert.Sage.meanMul (aggOf (dstOf (edges m c)) (srcOf (edges m c))) (degOf (dstOf (edges m c)))
    (hidden1 m c) (tr (m ((c.tc : Thread nD τ).loc main_arg5))) (tr (m ((c.tc : Thread nD τ).loc main_arg6))) (m ((c.tc : Thread nD τ).loc main_arg7))

/-- The stage's output array holds the second hidden layer. -/
theorem V4_out (c : Dev nD) : V4 m ρ c main_v42 = hidden2 m c := by
  refine ((W4_arr m ρ c 5).trans (region1_value (V3 m ρ) c)).trans ?_
  rw [V3_mean, V3_feat, V3_wl, V3_wr, V3_bias, meanOf_invOf]
  rfl

theorem V4_v1 (c : Dev nD) : V4 m ρ c main_v1 = srcOf (edges m c) :=
  (W4_of_ne m ρ c main_v1 (by decide)).trans (V3_v1 m ρ c)
theorem V4_v3 (c : Dev nD) : V4 m ρ c main_v3 = dstOf (edges m c) :=
  (W4_of_ne m ρ c main_v3 (by decide)).trans (V3_v3 m ρ c)
theorem V4_v12 (c : Dev nD) : V4 m ρ c main_v12 = invOf (dstOf (edges m c)) :=
  (W4_of_ne m ρ c main_v12 (by decide)).trans (V3_v12 m ρ c)
theorem V4_arg (c : Dev nD) :
    V4 m ρ c main_arg8 = (m ((c.tc : Thread nD τ).loc main_arg8)) ∧ V4 m ρ c main_arg9 = (m ((c.tc : Thread nD τ).loc main_arg9)) ∧ V4 m ρ c main_arg10 = (m ((c.tc : Thread nD τ).loc main_arg10)) :=
  ⟨(W4_of_ne m ρ c main_arg8 (by decide)).trans (V3_arg m ρ c).1,
   (W4_of_ne m ρ c main_arg9 (by decide)).trans (V3_arg m ρ c).2.1,
   (W4_of_ne m ρ c main_arg10 (by decide)).trans (V3_arg m ρ c).2.2⟩

end Cert.KernelIdeal.Hand

end
-- ==== Proof.Chain2.lean ====
/-
  The third layer of the kernel's program, and the program's result. Between the second and the third dense
  stage the host operations take the neighbour sums of the second hidden layer, their mean, and the last layer's
  transposed weights; the third stage, which has no rectifier, leaves the network's output in the result array.
-/
import proofs.«180433_j2164663517731_1_alg».proof.Proof.Gen.KernelIdeal.Frame
import proofs.«180433_j2164663517731_1_alg».proof.Proof.KHost
import proofs.«180433_j2164663517731_1_alg».proof.Proof.Region2
import proofs.«180433_j2164663517731_1_alg».proof.Proof.Chain1
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## What the stage is entered with -/

set_option maxHeartbeats 4000000 in
theorem V5_mean (c : Dev nD) :
    V5 m ρ c main_v54 = meanOf (aggOf (dstOf (edges m c)) (srcOf (edges m c)) (hidden2 m c)) (invOf (dstOf (edges m c))) := by
  have e : V5 m ρ c main_v54
      = meanOf (aggOf (V4 m ρ c main_v3) (V4 m ρ c main_v1) (V4 m ρ c main_v42)) (V4 m ρ c main_v12) := by
    dsimp only [V5, W5, hostOps2]; after_results_simp
    rfl
  rw [e, V4_v3, V4_v1, V4_out, V4_v12]

set_option maxHeartbeats 4000000 in
theorem V5_feat (c : Dev nD) : V5 m ρ c main_v42 = hidden2 m c := by
  dsimp only [V5, W5, hostOps2]; after_results_simp
  exact V4_out m ρ c

set_option maxHeartbeats 4000000 in
theorem V5_wl (c : Dev nD) : V5 m ρ c main_v55 = tr (m ((c.tc : Thread nD τ).loc main_arg8)) := by
  have e : V5 m ρ c main_v55 = tr (V4 m ρ c main_arg8) := by
    dsimp only [V5, W5, hostOps2]; after_results_simp
    rfl
  rw [e, (V4_arg m ρ c).1]

set_option maxHeartbeats 4000000 in
theorem V5_wr (c : Dev nD) : V5 m ρ c main_v56 = tr (m ((c.tc : Thread nD τ).loc main_arg9)) := by
  have e : V5 m ρ c main_v56 = tr (V4 m ρ c main_arg9) := by
    dsimp only [V5, W5, hostOps2]; after_results_simp
    rfl
  rw [e, (V4_arg m ρ c).2.1]

set_option maxHeartbeats 4000000 in
theorem V5_bias (c : Dev nD) : V5 m ρ c main_arg10 = (m ((c.tc : Thread nD τ).loc main_arg10)) := by
  dsimp only [V5, W5, hostOps2]; after_results_simp
  exact (V4_arg m ρ c).2.2

/-! ## What the stage leaves: the program's result -/

/-- The result array ends at the three-layer network of the argument arrays, the mean taken as a product. -/
theorem kernel_value (c : Dev nD) :
    V6 m ρ c main_v57
      = Cert.Sage.net Cert.Sage.meanMul (aggOf (dstOf (edges m c)) (srcOf (edges m c))) (degOf (dstOf (edges m c))) (m ((c.tc : Thread nD τ).loc main_arg0))
          (tr (m ((c.tc : Thread nD τ).loc main_arg2))) (tr (m ((c.tc : Thread nD τ).loc main_arg3))) (m ((c.tc : Thread nD τ).loc main_arg4))
          (tr (m ((c.tc : Thread nD τ).loc main_arg5))) (tr (m ((c.tc : Thread nD τ).loc main_arg6))) (m ((c.tc : Thread nD τ).loc main_arg7))
          (tr (m ((c.tc : Thread nD τ).loc main_arg8))) (tr (m ((c.tc : Thread nD τ).loc main_arg9))) (m ((c.tc : Thread nD τ).loc main_arg10)) := by
  refine ((W6_arr m ρ c 5).trans (region2_value (V5 m ρ) c)).trans ?_
  rw [V5_mean, V5_feat, V5_wl, V5_wr, V5_bias, meanOf_invOf]
  rfl

end Cert.KernelIdeal.Hand

end
-- ==== Proof.RefValue.lean ====
import proofs.«180433_j2164663517731_1_alg».proof.Proof.Gen.ReferenceIdeal.Read
import proofs.«180433_j2164663517731_1_alg».proof.Proof.Spec

noncomputable section

namespace Cert.ReferenceIdeal.Hand

open Cert.ReferenceIdeal Cert.ReferenceIdeal.Gen Idealize.ShloMosaic Idealize.ShloMosaic.TcCoe Idealize.SL.Sem

/-- One 32-bit word per edge. -/
abbrev EdgeVec : Type := (⟨S600000, .i32⟩ : BufTy).Contents (Elt Ideal)

/-- The edges' destination nodes: row 1 of the edge array, as a vector. -/
def dstOf (E : (⟨S2x600000, .i32⟩ : BufTy).Contents (Elt Ideal)) : EdgeVec :=
  shapeCast _ (extractStridedSlice S1x600000 ![1, 0] E slices_S2x600000_S1x600000_1_0) shapeCasts_S1x600000_S600000

/-- The edges' source nodes: row 0 of the edge array, as a vector. -/
def srcOf (E : (⟨S2x600000, .i32⟩ : BufTy).Contents (Elt Ideal)) : EdgeVec :=
  shapeCast _ (extractStridedSlice S1x600000 ![0, 0] E slices_S2x600000_S1x600000_0_0) shapeCasts_S1x600000_S600000

/-- The neighbour sums of the features `h`: the rows of `h` at the edges' sources (a negative source counted from
    the end), added into the rows of a zero array at the edges' destinations. -/
def aggOf (dst src : EdgeVec) (h : FVec Ideal S50000x128 .f32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- The in-degrees: a one per edge added into a zero vector at the edge's destination. -/
def degOf (dst : EdgeVec) : FVec Ideal S50000 .f32 :=
  Host.scatterAdd scatter_S50000_S600000x1_S600000_n_0_0_1
    (broadcastInDim S50000 ![] bcast_S_S50000 (constant S_ .f32 0x00000000#32))
    (broadcastInDim S600000x1 ![0] bcast_S600000_S600000x1_0 dst)
    (broadcastInDim S600000 ![] bcast_S_S600000 (constant S_ .f32 0x3F800000#32))

/-- A weight matrix transposed, as the products take it. -/
def tr (W : FVec Ideal S128x128 .f32) : FVec Ideal S128x128 .f32 :=
  transpose S128x128 [1, 0] W transposes_S128x128_S128x128_1_0

open Idealize.ShloMosaic.ValueIdx

/-- The neighbour sums of layer 1 are `aggOf` of that layer's input features. -/
theorem agg1 (x0 : (⟨S50000x128, .f32⟩ : BufTy).Contents (Elt Ideal)) (x1 : (⟨S2x600000, .i32⟩ : BufTy).Contents (Elt Ideal)) :
    Read.val_main_v13 (F := Ideal) x0 x1 = aggOf (dstOf x1) (srcOf x1) x0 := rfl

/-- The degrees of layer 1 are `degOf` of the destinations. -/
theorem deg1 (x1 : (⟨S2x600000, .i32⟩ : BufTy).Contents (Elt Ideal)) : Read.val_main_v17 (F := Ideal) x1 = degOf (dstOf x1) := rfl

/-- The transposed left weight of layer 1. -/
theorem tr1L (w : (⟨S128x128, .f32⟩ : BufTy).Contents (Elt Ideal)) : Read.val_main_v23 (F := Ideal) w = tr w := rfl

/-- The transposed right weight of layer 1. -/
theorem tr1R (w : (⟨S128x128, .f32⟩ : BufTy).Contents (Elt Ideal)) : Read.val_main_v25 (F := Ideal) w = tr w := rfl

/-- Layer 1: entry `(p, q)` is the sum over `k` of the mean's entry `(p, k)` (the neighbour sum over the degree
    of node `p` clamped at one) times the transposed left weight's `(k, q)`, plus the same sum of the input features
    against the transposed right weight, plus the bias at `q`, clamped below at zero. -/
theorem layer1_eq (x0 : (⟨S50000x128, .f32⟩ : BufTy).Contents (Elt Ideal)) (x1 : (⟨S2x600000, .i32⟩ : BufTy).Contents (Elt Ideal)) (x2 x3 : (⟨S128x128, .f32⟩ : BufTy).Contents (Elt Ideal)) (x4 : (⟨S128, .f32⟩ : BufTy).Contents (Elt Ideal)) :
    Read.val_main_v31 (F := Ideal) x0 x1 x2 x3 x4
      = Cert.Sage.layerRelu Cert.Sage.meanDiv (aggOf (dstOf x1) (srcOf x1)) (degOf (dstOf x1)) x0 (tr x2) (tr x3) x4 := by
  funext i
  unfold Cert.Sage.layerRelu Cert.Sage.denseRelu Cert.Sage.linAt Cert.Sage.meanDiv
  rw [Read.val_main_v31_apply, Read.val_main_v30_apply, Read.val_main_v27_apply, Read.val_main_v24_apply,
    Read.val_main_v26_apply, Read.val_main_v29_apply, Read.val_main_v28_apply, Read.val_main_call0_v0_apply,
    Read.val_main_call0_cst_apply, Ideal.maximumf_def, Ideal.addf_def, Ideal.addf_def, Ideal.ofBits_def,
    Ideal.ofBits_zero_f32, tr1L, tr1R]
  have hL : ∀ k : Fin 128, Read.lidx_main_v24 i k = ix2 (i 0) k := fun k => funext fun a => Fin.ext (by
    match a with | ⟨0, _⟩ => rfl | ⟨1, _⟩ => rfl)
  have hR : ∀ k : Fin 128, Read.ridx_main_v24 i k = ix2 k (i 1) := fun k => funext fun a => Fin.ext (by
    match a with | ⟨0, _⟩ => rfl | ⟨1, _⟩ => rfl)
  have hL' : ∀ k : Fin 128, Read.lidx_main_v26 i k = ix2 (i 0) k := fun k => funext fun a => Fin.ext (by
    match a with | ⟨0, _⟩ => rfl | ⟨1, _⟩ => rfl)
  have hR' : ∀ k : Fin 128, Read.ridx_main_v26 i k = ix2 k (i 1) := fun k => funext fun a => Fin.ext (by
    match a with | ⟨0, _⟩ => rfl | ⟨1, _⟩ => rfl)
  have hB : Read.idx_main_v28 (Read.idx_main_v29 i) = ix1 (i 1) := funext fun a => Fin.ext (by
    match a with | ⟨0, _⟩ => rfl)
  have hA : ∀ j : S50000x128.Idx, Read.val_main_v22 (F := Ideal) x0 x1 j
      = Ideal.div (aggOf (dstOf x1) (srcOf x1) x0 j) (max (degOf (dstOf x1) (ix1 (j 0))) Cert.Sage.one) := fun j => by
    rw [Read.val_main_v22_apply, Read.val_main_v21_apply, Read.val_main_v20_apply, Read.val_main_v19_apply,
      Read.val_main_v18_apply, Read.val_main_cst_3_apply, agg1, deg1, Ideal.hostDivf_def, Ideal.maximumf_def,
      Ideal.ofBits_def]
    have hM : Read.idx_main_v20 (Read.idx_main_v21 j) = ix1 (j 0) := funext fun a => Fin.ext (by
      match a with | ⟨0, _⟩ => rfl)
    rw [hM]
    rfl
  rw [hB]
  refine congrArg₂ max (congrArg₂ HAdd.hAdd (congrArg₂ HAdd.hAdd (Finset.sum_congr rfl fun k _ => ?_)
    (Finset.sum_congr rfl fun k _ => ?_)) rfl) rfl
  · rw [hA, hL, hR]
    rfl
  · rw [hL', hR']
    rfl

/-- The neighbour sums of layer 2 are `aggOf` of that layer's input features. -/
theorem agg2 (x0 : (⟨S50000x128, .f32⟩ : BufTy).Contents (Elt Ideal)) (x1 : (⟨S2x600000, .i32⟩ : BufTy).Contents (Elt Ideal)) (x2 x3 : (⟨S128x128, .f32⟩ : BufTy).Contents (Elt Ideal)) (x4 : (⟨S128, .f32⟩ : BufTy).Contents (Elt Ideal)) :
    Read.val_main_v41 (F := Ideal) x0 x1 x2 x3 x4 = aggOf (dstOf x1) (srcOf x1) (Read.val_main_v31 (F := Ideal) x0 x1 x2 x3 x4) := rfl

/-- The degrees of layer 2 are `degOf` of the destinations. -/
theorem deg2 (x1 : (⟨S2x600000, .i32⟩ : BufTy).Contents (Elt Ideal)) : Read.val_main_v45 (F := Ideal) x1 = degOf (dstOf x1) := rfl

/-- The transposed left weight of layer 2. -/
theorem tr2L (w : (⟨S128x128, .f32⟩ : BufTy).Contents (Elt Ideal)) : Read.val_main_v51 (F := Ideal) w = tr w := rfl

/-- The transposed right weight of layer 2. -/
theorem tr2R (w : (⟨S128x128, .f32⟩ : BufTy).Contents (Elt Ideal)) : Read.val_main_v53 (F := Ideal) w = tr w := rfl

/-- Layer 2: entry `(p, q)` is the sum over `k` of the mean's entry `(p, k)` (the neighbour sum over the degree
    of node `p` clamped at one) times the transposed left weight's `(k, q)`, plus the same sum of the input features
    against the transposed right weight, plus the bias at `q`, clamped below at zero. -/
theorem layer2_eq (x0 : (⟨S50000x128, .f32⟩ : BufTy).Contents (Elt Ideal)) (x1 : (⟨S2x600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) :
    Read.val_main_v59 (F := Ideal) x0 x1 x2 x3 x4 x5 x6 x7
      = Cert.Sage.layerRelu Cert.Sage.meanDiv (aggOf (dstOf x1) (srcOf x1)) (degOf (dstOf x1)) (Read.val_main_v31 (F := Ideal) x0 x1 x2 x3 x4) (tr x5) (tr x6) x7 := by
  funext i
  unfold Cert.Sage.layerRelu Cert.Sage.denseRelu Cert.Sage.linAt Cert.Sage.meanDiv
  rw [Read.val_main_v59_apply, Read.val_main_v58_apply, Read.val_main_v55_apply, Read.val_main_v52_apply,
    Read.val_main_v54_apply, Read.val_main_v57_apply, Read.val_main_v56_apply, Read.val_main_call1_v0_apply,
    Read.val_main_call1_cst_apply, Ideal.maximumf_def, Ideal.addf_def, Ideal.addf_def, Ideal.ofBits_def,
    Ideal.ofBits_zero_f32, tr2L, tr2R]
  have hL : ∀ k : Fin 128, Read.lidx_main_v52 i k = ix2 (i 0) k := fun k => funext fun a => Fin.ext (by
    match a with | ⟨0, _⟩ => rfl | ⟨1, _⟩ => rfl)
  have hR : ∀ k : Fin 128, Read.ridx_main_v52 i k = ix2 k (i 1) := fun k => funext fun a => Fin.ext (by
    match a with | ⟨0, _⟩ => rfl | ⟨1, _⟩ => rfl)
  have hL' : ∀ k : Fin 128, Read.lidx_main_v54 i k = ix2 (i 0) k := fun k => funext fun a => Fin.ext (by
    match a with | ⟨0, _⟩ => rfl | ⟨1, _⟩ => rfl)
  have hR' : ∀ k : Fin 128, Read.ridx_main_v54 i k = ix2 k (i 1) := fun k => funext fun a => Fin.ext (by
    match a with | ⟨0, _⟩ => rfl | ⟨1, _⟩ => rfl)
  have hB : Read.idx_main_v56 (Read.idx_main_v57 i) = ix1 (i 1) := funext fun a => Fin.ext (by
    match a with | ⟨0, _⟩ => rfl)
  have hA : ∀ j : S50000x128.Idx, Read.val_main_v50 (F := Ideal) x0 x1 x2 x3 x4 j
      = Ideal.div (aggOf (dstOf x1) (srcOf x1) (Read.val_main_v31 (F := Ideal) x0 x1 x2 x3 x4) j) (max (degOf (dstOf x1) (ix1 (j 0))) Cert.Sage.one) := fun j => by
    rw [Read.val_main_v50_apply, Read.val_main_v49_apply, Read.val_main_v48_apply, Read.val_main_v47_apply,
      Read.val_main_v46_apply, Read.val_main_cst_9_apply, agg2, deg2, Ideal.hostDivf_def, Ideal.maximumf_def,
      Ideal.ofBits_def]
    have hM : Read.idx_main_v48 (Read.idx_main_v49 j) = ix1 (j 0) := funext fun a => Fin.ext (by
      match a with | ⟨0, _⟩ => rfl)
    rw [hM]
    rfl
  rw [hB]
  refine congrArg₂ max (congrArg₂ HAdd.hAdd (congrArg₂ HAdd.hAdd (Finset.sum_congr rfl fun k _ => ?_)
    (Finset.sum_congr rfl fun k _ => ?_)) rfl) rfl
  · rw [hA, hL, hR]
    rfl
  · rw [hL', hR']
    rfl

/-- The neighbour sums of layer 3 are `aggOf` of that layer's input features. -/
theorem agg3 (x0 : (⟨S50000x128, .f32⟩ : BufTy).Contents (Elt Ideal)) (x1 : (⟨S2x600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) :
    Read.val_main_v69 (F := Ideal) x0 x1 x2 x3 x4 x5 x6 x7 = aggOf (dstOf x1) (srcOf x1) (Read.val_main_v59 (F := Ideal) x0 x1 x2 x3 x4 x5 x6 x7) := rfl

/-- The degrees of layer 3 are `degOf` of the destinations. -/
theorem deg3 (x1 : (⟨S2x600000, .i32⟩ : BufTy).Contents (Elt Ideal)) : Read.val_main_v73 (F := Ideal) x1 = degOf (dstOf x1) := rfl

/-- The transposed left weight of layer 3. -/
theorem tr3L (w : (⟨S128x128, .f32⟩ : BufTy).Contents (Elt Ideal)) : Read.val_main_v79 (F := Ideal) w = tr w := rfl

/-- The transposed right weight of layer 3. -/
theorem tr3R (w : (⟨S128x128, .f32⟩ : BufTy).Contents (Elt Ideal)) : Read.val_main_v81 (F := Ideal) w = tr w := rfl

/-- Layer 3: entry `(p, q)` is the sum over `k` of the mean's entry `(p, k)` (the neighbour sum over the degree
    of node `p` clamped at one) times the transposed left weight's `(k, q)`, plus the same sum of the input features
    against the transposed right weight, plus the bias at `q`. -/
theorem layer3_eq (x0 : (⟨S50000x128, .f32⟩ : BufTy).Contents (Elt Ideal)) (x1 : (⟨S2x600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) :
    Read.val_main_v86 (F := Ideal) x0 x1 x2 x3 x4 x5 x6 x7 x8 x9 x10
      = Cert.Sage.layerLin Cert.Sage.meanDiv (aggOf (dstOf x1) (srcOf x1)) (degOf (dstOf x1)) (Read.val_main_v59 (F := Ideal) x0 x1 x2 x3 x4 x5 x6 x7) (tr x8) (tr x9) x10 := by
  funext i
  unfold Cert.Sage.layerLin Cert.Sage.denseLin Cert.Sage.linAt Cert.Sage.meanDiv
  rw [Read.val_main_v86_apply, Read.val_main_v83_apply, Read.val_main_v80_apply,
    Read.val_main_v82_apply, Read.val_main_v85_apply, Read.val_main_v84_apply, Ideal.addf_def, Ideal.addf_def, tr3L, tr3R]
  have hL : ∀ k : Fin 128, Read.lidx_main_v80 i k = ix2 (i 0) k := fun k => funext fun a => Fin.ext (by
    match a with | ⟨0, _⟩ => rfl | ⟨1, _⟩ => rfl)
  have hR : ∀ k : Fin 128, Read.ridx_main_v80 i k = ix2 k (i 1) := fun k => funext fun a => Fin.ext (by
    match a with | ⟨0, _⟩ => rfl | ⟨1, _⟩ => rfl)
  have hL' : ∀ k : Fin 128, Read.lidx_main_v82 i k = ix2 (i 0) k := fun k => funext fun a => Fin.ext (by
    match a with | ⟨0, _⟩ => rfl | ⟨1, _⟩ => rfl)
  have hR' : ∀ k : Fin 128, Read.ridx_main_v82 i k = ix2 k (i 1) := fun k => funext fun a => Fin.ext (by
    match a with | ⟨0, _⟩ => rfl | ⟨1, _⟩ => rfl)
  have hB : Read.idx_main_v84 (Read.idx_main_v85 i) = ix1 (i 1) := funext fun a => Fin.ext (by
    match a with | ⟨0, _⟩ => rfl)
  have hA : ∀ j : S50000x128.Idx, Read.val_main_v78 (F := Ideal) x0 x1 x2 x3 x4 x5 x6 x7 j
      = Ideal.div (aggOf (dstOf x1) (srcOf x1) (Read.val_main_v59 (F := Ideal) x0 x1 x2 x3 x4 x5 x6 x7) j) (max (degOf (dstOf x1) (ix1 (j 0))) Cert.Sage.one) := fun j => by
    rw [Read.val_main_v78_apply, Read.val_main_v77_apply, Read.val_main_v76_apply, Read.val_main_v75_apply,
      Read.val_main_v74_apply, Read.val_main_cst_15_apply, agg3, deg3, Ideal.hostDivf_def, Ideal.maximumf_def,
      Ideal.ofBits_def]
    have hM : Read.idx_main_v76 (Read.idx_main_v77 j) = ix1 (j 0) := funext fun a => Fin.ext (by
      match a with | ⟨0, _⟩ => rfl)
    rw [hM]
    rfl
  rw [hB]
  refine congrArg₂ HAdd.hAdd (congrArg₂ HAdd.hAdd (Finset.sum_congr rfl fun k _ => ?_)
    (Finset.sum_congr rfl fun k _ => ?_)) rfl
  · rw [hA, hL, hR]
    rfl
  · rw [hL', hR']
    rfl

/-- What the reference program returns: the three-layer network with the neighbour mean taken as a quotient. -/
theorem ref_value (m : (ℓ : Loc nD τ sig) → Buf (Elt Ideal) ℓ) (c : Dev nD) :
    Cert.ReferenceIdeal.Value.res_main_v86 (F := Ideal) m c
      = Cert.Sage.net Cert.Sage.meanDiv
          (aggOf (dstOf (m ((c.tc : Thread nD τ).loc main_arg1))) (srcOf (m ((c.tc : Thread nD τ).loc main_arg1))))
          (degOf (dstOf (m ((c.tc : Thread nD τ).loc main_arg1))))
          (m ((c.tc : Thread nD τ).loc main_arg0))
          (tr (m ((c.tc : Thread nD τ).loc main_arg2))) (tr (m ((c.tc : Thread nD τ).loc main_arg3))) (m ((c.tc : Thread nD τ).loc main_arg4))
          (tr (m ((c.tc : Thread nD τ).loc main_arg5))) (tr (m ((c.tc : Thread nD τ).loc main_arg6))) (m ((c.tc : Thread nD τ).loc main_arg7))
          (tr (m ((c.tc : Thread nD τ).loc main_arg8))) (tr (m ((c.tc : Thread nD τ).loc main_arg9))) (m ((c.tc : Thread nD τ).loc main_arg10)) := by
  unfold Cert.Sage.net
  rw [Read.val_main_v86_eq, layer3_eq, layer2_eq, layer1_eq]

end Cert.ReferenceIdeal.Hand

end
-- ==== Proof.lean ====
/-
  A three-layer graph convolution with mean aggregation: the kernel's program against its reference, over the
  extended reals.

  Both programs compute, layer by layer from the node features `h`, the neighbour sums `S` (the rows of `h` at the
  edges' sources added into the rows at the edges' destinations), the neighbour mean `A`, and
  `A · Wlᵀ + h · Wrᵀ + b`, with `max · 0` after the first two layers. The kernel's program computes the two
  products, the bias and the rectifier in a dense stage that walks the rows in ten blocks of 5000, and spells the
  mean as the PRODUCT of the sums with the reciprocal of `max deg 1` taken once before the first layer; the
  reference spells it, in every layer, as the QUOTIENT by `max deg 1`. Gathering, scattering, the degrees and
  the transposed weights are the same host operations on both sides and are never opened.

  On the extended reals `a / y = a · y⁻¹` for `y ≠ 0` and `1 / y = y⁻¹`, and `max d 1` is never zero: the two means
  are one function, infinite entries included, so the precondition is not used. The matrix products are the same
  sums over the same 128 terms in the same order; a change of float format is the identity.

  The three frames are the generated ones (the reference's is its generated run with the result dropped); the
  idealization rewrote nothing; the algebraic claim sets the kernel program's run, its result array read through
  the three stages, beside the reference's generated run.
-/
import proofs.«180433_j2164663517731_1_alg».proof.Defs
import proofs.«180433_j2164663517731_1_alg».proof.Proof.Gen.Kernel
import proofs.«180433_j2164663517731_1_alg».proof.Proof.Gen.Kernel.Frame
import proofs.«180433_j2164663517731_1_alg».proof.Proof.Gen.KernelIdeal
import proofs.«180433_j2164663517731_1_alg».proof.Proof.Gen.KernelIdeal.Frame
import proofs.«180433_j2164663517731_1_alg».proof.Proof.Gen.ReferenceIdeal
import proofs.«180433_j2164663517731_1_alg».proof.Proof.Gen.ReferenceIdeal.Run
import proofs.«180433_j2164663517731_1_alg».proof.Proof.Gen.ReferenceIdeal.Read
import proofs.«180433_j2164663517731_1_alg».proof.Proof.Gen.Pre_finite_inputs
import proofs.«180433_j2164663517731_1_alg».proof.Proof.Spec
import proofs.«180433_j2164663517731_1_alg».proof.Proof.KRun
import proofs.«180433_j2164663517731_1_alg».proof.Proof.Chain2
import proofs.«180433_j2164663517731_1_alg».proof.Proof.RefValue
import Idealize.ShloMosaic.Adequacy
import Idealize.ShloMosaic.Init

noncomputable section

namespace Cert.Proof

open Idealize.ShloMosaic Idealize.ShloMosaic.TcCoe Idealize.SL.Sem

/-! ## The shared host operations are the same functions in both programs -/

theorem dstOf_eq : @Cert.ReferenceIdeal.Hand.dstOf = @Cert.KernelIdeal.Hand.dstOf := rfl
theorem srcOf_eq : @Cert.ReferenceIdeal.Hand.srcOf = @Cert.KernelIdeal.Hand.srcOf := rfl
theorem aggOf_eq : @Cert.ReferenceIdeal.Hand.aggOf = @Cert.KernelIdeal.Hand.aggOf := rfl
theorem degOf_eq : @Cert.ReferenceIdeal.Hand.degOf = @Cert.KernelIdeal.Hand.degOf := rfl
theorem tr_eq : @Cert.ReferenceIdeal.Hand.tr = @Cert.KernelIdeal.Hand.tr := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the three-layer network of the arguments in their result arrays: the kernel's with the
    mean as a product, the reference's with the mean as a quotient, which are one function. -/
theorem algebraic : Cert.algebraic_KernelIdeal_ReferenceIdeal := by
  intro m ρ m' ρ' _ hagree
  refine ⟨fun c => Cert.KernelIdeal.Gen.V6 m ρ c Cert.KernelIdeal.main_v57, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  refine ((Cert.ReferenceIdeal.Hand.ref_value m' c).trans ?_).trans (Cert.KernelIdeal.Hand.kernel_value m ρ c).symm
  rw [Cert.Sage.net_meanMul_eq, h0, h1, h2, h3, h4, h5, h6, h7, h8, h9, h10, dstOf_eq, srcOf_eq, aggOf_eq, degOf_eq, tr_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
